-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S384x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg12
  let main_cst_18 : FVec F S_ .f32 := constant S_ .f32 0x7F800000#32
  let main_v50 : FVec F S384x128 .f32 := broadcastInDim S384x128 ![] bcast_S_S384x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S384x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S50000x128 .f32) (main_arg2 : IVec S2x640000 32) (main_arg3 : IVec S2x640000 32) (main_arg4 : FVec F S256x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S384x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S6400x256 : Shape := ⟨2, ![6400, 256]⟩
abbrev S6400x128 : Shape := ⟨2, ![6400, 128]⟩
abbrev S1x128 : Shape := ⟨2, ![1, 128]⟩
abbrev S5000x128 : Shape := ⟨2, ![5000, 128]⟩
abbrev S5000x384 : Shape := ⟨2, ![5000, 384]⟩

abbrev nBuf : Space → Nat
  | .hbm => 73
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x640000, .i32⟩
  | .hbm, ⟨3, _⟩ => ⟨S2x640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S1x640000, .i32⟩
  | .hbm, ⟨21, _⟩ => ⟨S640000, .i32⟩
  | .hbm, ⟨22, _⟩ => ⟨S1x640000, .i32⟩
  | .hbm, ⟨23, _⟩ => ⟨S640000, .i32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S640000x256, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S640000x256, .f32⟩
  | .hbm, ⟨62, _⟩ => ⟨S640000x128, .f32⟩
  | .hbm, ⟨63, _⟩ => ⟨S640000x128, .f32⟩
  | .hbm, ⟨64, _⟩ => ⟨S_, .f32⟩
  | .hbm, ⟨65, _⟩ => ⟨S50000x128, .f32⟩
  | .hbm, ⟨66, _⟩ => ⟨S640000x1, .i32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S640000x1, .i32⟩
  | .hbm, ⟨71, _⟩ => ⟨S50000x128, .f32⟩
  | .hbm, ⟨72, _⟩ => ⟨S50000x128, .f32⟩
  | .local _ .vmem, ⟨0, _⟩ => ⟨S6400x256, .f32⟩
  | .local _ .vmem, ⟨1, _⟩ => ⟨S6400x256, .f32⟩
  | .local _ .vmem, ⟨2, _⟩ => ⟨S256x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S6400x128, .f32⟩
  | .local _ .vmem, ⟨7, _⟩ => ⟨S6400x128, .f32⟩
  | .local _ .vmem, ⟨8, _⟩ => ⟨S6400x256, .f32⟩
  | .local _ .vmem, ⟨9, _⟩ => ⟨S6400x256, .f32⟩
  | .local _ .vmem, ⟨10, _⟩ => ⟨S256x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S6400x128, .f32⟩
  | .local _ .vmem, ⟨15, _⟩ => ⟨S6400x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S384x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  inb_S6400x128_S6400x128_0_0 : ∀ a, (![0, 0] : Fin 2 → Nat) a + S6400x128.size a ≤ S6400x128.size a
  h_S6400x128 : 0 < S6400x128.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  inb_S384x128_S384x128_0_0 : ∀ a, (![0, 0] : Fin 2 → Nat) a + S384x128.size a ≤ S384x128.size a
  h_S384x128 : 0 < S384x128.numel
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  dot_S6400x256_S256x128_S6400x128_1_0_0_1_n_n_wf : DotDims.WF S6400x256 S256x128 S6400x128 [1] [0] [0] [1] [] []
  dot_S6400x128_S128x128_S6400x128_1_0_0_1_n_n_wf : DotDims.WF S6400x128 S128x128 S6400x128 [1] [0] [0] [1] [] []
  scatter_S50000x128_S640000x1_S640000x128_1_0_0_1_wf : ScatterDims.WF S50000x128 S640000x1 S640000x128 [1] [0] [0] 1
  dot_S5000x384_S384x128_S5000x128_1_0_0_1_n_n_wf : DotDims.WF S5000x384 S384x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S640000x256.size a
  hwx0_0 : ∀ i : grid0.Coords, EltTy.bits .f32 = 32 ∨ (Rect.block (s := S640000x256) S6400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S640000x128.size a
  hwx0_5 : ∀ i : grid0.Coords, EltTy.bits .f32 = 32 ∨ (Rect.block (s := S640000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x256.size a ≤ S640000x256.size a
  hwx1_0 : ∀ i : grid1.Coords, EltTy.bits .f32 = 32 ∨ (Rect.block (s := S640000x256) S6400x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x128.size a ≤ S640000x128.size a
  hwx1_5 : ∀ i : grid1.Coords, EltTy.bits .f32 = 32 ∨ (Rect.block (s := S640000x128) S6400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S6400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S6400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S50000x384 : Shape := ⟨2, ![50000, 384]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x640000, .i32⟩
  | .hbm, ⟨3, _⟩ => ⟨S2x640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S1x640000, .i32⟩
  | .hbm, ⟨21, _⟩ => ⟨S640000, .i32⟩
  | .hbm, ⟨22, _⟩ => ⟨S1x640000, .i32⟩
  | .hbm, ⟨23, _⟩ => ⟨S640000, .i32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S640000x256, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S1x128, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S640000x128, .f32⟩
  | .hbm, ⟨56, _⟩ => ⟨S640000x128, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x128, .f32⟩
  | .hbm, ⟨66, _⟩ => ⟨S_, .i32⟩
  | .hbm, ⟨67, _⟩ => ⟨S640000, .i32⟩
  | .hbm, ⟨68, _⟩ => ⟨S640000, .i1⟩
  | .hbm, ⟨69, _⟩ => ⟨S_, .i32⟩
  | .hbm, ⟨70, _⟩ => ⟨S640000, .i32⟩
  | .hbm, ⟨71, _⟩ => ⟨S640000, .i32⟩
  | .hbm, ⟨72, _⟩ => ⟨S640000, .i32⟩
  | .hbm, ⟨73, _⟩ => ⟨S640000x1, .i32⟩
  | .hbm, ⟨74, _⟩ => ⟨S640000x128, .f32⟩
  | .hbm, ⟨75, _⟩ => ⟨S640000x256, .f32⟩
  | .hbm, ⟨76, _⟩ => ⟨S640000x128, .f32⟩
  | .hbm, ⟨77, _⟩ => ⟨S1x128, .f32⟩
  | .hbm, ⟨78, _⟩ => ⟨S640000x128, .f32⟩
  | .hbm, ⟨79, _⟩ => ⟨S640000x128, .f32⟩
  | .hbm, ⟨80, _⟩ => ⟨S_, .f32⟩
  | .hbm, ⟨81, _⟩ => ⟨S640000x128, .f32⟩
  | .hbm, ⟨82, _⟩ => ⟨S640000x128, .f32⟩
  | .hbm, ⟨83, _⟩ => ⟨S640000x128, .f32⟩
  | .hbm, ⟨84, _⟩ => ⟨S1x128, .f32⟩
  | .hbm, ⟨85, _⟩ => ⟨S640000x128, .f32⟩
  | .hbm, ⟨86, _⟩ => ⟨S640000x128, .f32⟩
  | .hbm, ⟨87, _⟩ => ⟨S_, .f32⟩
  | .hbm, ⟨88, _⟩ => ⟨S640000x128, .f32⟩
  | .hbm, ⟨89, _⟩ => ⟨S640000x128, .f32⟩
  | .hbm, ⟨90, _⟩ => ⟨S_, .f32⟩
  | .hbm, ⟨91, _⟩ => ⟨S50000x128, .f32⟩
  | .hbm, ⟨92, _⟩ => ⟨S640000x1, .i32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S640000x1, .i32⟩
  | .hbm, ⟨97, _⟩ => ⟨S50000x128, .f32⟩
  | .hbm, ⟨98, _⟩ => ⟨S50000x384, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_c_3 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call2_cst : Ref sig .tc := ⟨.hbm, 80, rfl⟩
abbrev main_call2_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_cst : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call4_cst : Ref sig .tc := ⟨.hbm, 103, rfl⟩
abbrev main_call4_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its two result arrays named.

  @main is five segments: the host operations that gather and join the edge and interaction inputs, the two
  two-layer perceptron calls, the host operations that sum the edge and interaction features per node, and the
  node call. The contents of every buffer at each boundary are a fold from the launch memory; the last boundary's
  contents are `Gen.W5`. Every weakly fair execution terminates, and in its final memory every buffer that
  outlives the calls holds `Gen.W5`'s contents — in particular the node output and the edge features.
-/
import proofs.«125208_j45500883534272_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and the final memory holds, at every buffer
    that outlives the calls, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with the two results named: the node output `main_v46` and the edge features `main_v38` end at the last
    boundary's contents, and the arguments as launched. -/
theorem run_results : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v46 (by decide)),
       h c _ (mem_uc main_v38 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)
    (run_all m ρ)

end Cert.KernelIdeal.Results

end
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibDenseOps.lean ====
/-
  A dense layer as vector operations spell it, read as the layer of `LibDense` — general in the extents.

  Two spellings occur. A layer with many output columns is a matrix product into a zero accumulator, plus the bias row
  spread over the rows, and the rectifier is the entrywise maximum with a splat zero: over the extended reals this is
  `relu (lin h w b)`. A layer with ONE output column is often computed without a matrix product: every row of `h` is
  multiplied entrywise by the weights laid out as a row, the products are summed along the row, the sums are recast as
  a column and the one bias entry is added; when the row of weights is the transpose of the column `w` this is
  `lin h w b` with one output column.
-/
import proofs.«125208_j45500883534272_1_alg».proof.Proof.LibDense
import proofs.«125208_j45500883534272_1_alg».proof.Proof.LibPlainDot
import proofs.«125208_j45500883534272_1_alg».proof.Proof.LibColumns
import Idealize.ShloMosaic.Lib.ValueLayout

noncomputable section

open scoped BigOperators

namespace Cert.DenseOps

open Idealize.ShloMosaic Idealize.ShloMosaic.ValueIdx Cert.Dense

/-- A matrix product into the zero accumulator, plus a bias row spread over the rows, then the maximum with zero, is
    the rectified layer: entry (p, q) is `max (∑ k, h (p, k) · w (k, q) + b (0, q)) 0`. The four coordinate facts and the
    contraction's one axis are what a program's literal dimension numbers decide. -/
theorem matmul_bias_relu_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩) :
    maximumf (addf (FloatOps.matmul D prec h w (constant (⟨2, ![n, M]⟩ : Shape) .f32 0x00000000#32))
        (broadcastTo (⟨2, ![n, M]⟩ : Shape) b hb))
      (broadcast (⟨2, ![n, M]⟩ : Shape) (Scalar.ofBits (F := Ideal) .f32 0x00000000#32))
      = relu (lin h w b) := by
  funext i
  obtain ⟨p, q, rfl⟩ : ∃ (p : Fin n) (q : Fin M), i = ix2 p q := ⟨i 0, i 1, eq_ix2 i⟩
  rw [relu_apply, lin_apply, maximumf_apply, addf_apply, broadcast_apply,
    PlainDot.matmul_zero_apply D hr hs l0 l1 r0 r1 prec h w p q, broadcastTo_1b_ab_apply b hb p q]
  show max _ (Ideal.ofBits .f32 0x00000000#32) = _
  rw [Ideal.ofBits_zero_f32]

/-- A layer with one output column computed on the vector unit: the rows of `h` times the weights laid out as a row
    `wrow`, summed along each row, recast as a column, plus the one bias entry. With `wrow (0, k) = w (k, 0)` it is
    `lin h w b`: entry (p, 0) is `∑ k, h (p, k) · w (k, 0) + b (0, 0)`. -/
theorem mulrow_sum_bias_eq {n K : Nat} (h : FVec Ideal (⟨2, ![n, K]⟩ : Shape) .f32)
    (wrow : FVec Ideal (⟨2, ![1, K]⟩ : Shape) .f32) (b : FVec Ideal (⟨2, ![1, 1]⟩ : Shape) .f32)
    (w : (⟨2, ![K, 1]⟩ : Shape).Idx → EReal)
    (hw : ∀ k : Fin K, wrow (ix2 (0 : Fin 1) k) = w (ix2 k (0 : Fin 1)))
    (hbk : (⟨2, ![1, K]⟩ : Shape).Broadcasts ⟨2, ![n, K]⟩) (acc : BitVec (FTy.f32).bits)
    (hred : (⟨2, ![n, K]⟩ : Shape).Reduces [1] ⟨1, ![n]⟩) (hφ : FKind.Formats .f32) (hacc : acc = FKind.add.neutral .f32 hφ)
    (hsc : (⟨1, ![n]⟩ : Shape).ShapeCasts ⟨2, ![n, 1]⟩) (hb : (⟨2, ![1, 1]⟩ : Shape).Broadcasts ⟨2, ![n, 1]⟩) :
    addf (shapeCast (⟨2, ![n, 1]⟩ : Shape)
          (multiReduction .add [1] (⟨1, ![n]⟩ : Shape) (mulf h (broadcastTo (⟨2, ![n, K]⟩ : Shape) wrow hbk)) acc hred hφ hacc) hsc)
        (broadcastTo (⟨2, ![n, 1]⟩ : Shape) b hb)
      = lin h w b := by
  funext i
  obtain ⟨p, z, rfl⟩ : ∃ (p : Fin n) (z : Fin 1), i = ix2 p z := ⟨i 0, i 1, eq_ix2 i⟩
  obtain rfl : z = 0 := Subsingleton.elim _ _
  rw [lin_apply, addf_apply, LibColumns.shapeCast_a_a1_apply _ hsc p 0,
    LibColumns.rowSum_apply _ acc hred hφ hacc p, broadcastTo_1b_ab_apply b hb p 0]
  refine congrArg (· + b (ix2 (0 : Fin 1) (0 : Fin 1))) (Finset.sum_congr rfl fun k _ => ?_)
  rw [mulf_apply, broadcastTo_1b_ab_apply wrow hbk p k, hw k]

end Cert.DenseOps

end
-- ==== Proof.LibJoin3.lean ====
/-
  Three matrices with the same number of rows and the same number of columns laid side by side (a concatenation
  along axis 1), read at an entry: the entry in row `p` and column `j·n + k` of `[x₀ | x₁ | x₂]` is entry (p, k) of the
  j-th matrix. General in the extents.
-/
import Idealize.ShloMosaic.Lib.Pipeline.Value
import Idealize.ShloMosaic.Lib.ValueIdx

namespace Cert.LibJoin3

open Idealize.ShloMosaic Idealize.ShloMosaic.ValueIdx

variable {α : Type}

/-- Row `p`, column `c = j·n + k` of `[x₀ | x₁ | x₂]` is `xⱼ (p, k)`. -/
theorem concatenate_cols3_apply {a n N : Nat} (x0 x1 x2 : (⟨2, ![a, n]⟩ : Shape).Idx → α)
    (h : Shape.Concatenates [(⟨2, ![a, n]⟩ : Shape), (⟨2, ![a, n]⟩ : Shape), (⟨2, ![a, n]⟩ : Shape)] (⟨2, ![a, N]⟩ : Shape) 1)
    (p : Fin a) (c : Fin N) (k : Fin n) (j : Fin 3) (hc : j.val * n + k.val = c.val) :
    concatenate (⟨2, ![a, N]⟩ : Shape) 1
        [⟨(⟨2, ![a, n]⟩ : Shape), x0⟩, ⟨(⟨2, ![a, n]⟩ : Shape), x1⟩, ⟨(⟨2, ![a, n]⟩ : Shape), x2⟩] h (ix2 p c)
      = (match j with | 0 => x0 | 1 => x1 | 2 => x2) (ix2 p k) := by
  have hoff : ∀ b : Fin (⟨2, ![a, n]⟩ : Shape).rank, b.cast (rfl : (⟨2, ![a, n]⟩ : Shape).rank = (⟨2, ![a, N]⟩ : Shape).rank) ≠ (1 : Fin 2) →
      ((ix2 p k) b).val = ((ix2 p c) (b.cast rfl)).val := fun b hb => by
    match b with
    | ⟨0, _⟩ => rfl
    | ⟨1, _⟩ => exact absurd rfl hb
  match j with
  | 0 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 0 (by show 0 < 3; omega) _ x0 rfl rfl 0 rfl (ix2 p k) hoff
      (by show 0 + k.val = c.val; simpa using hc)
  | 1 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 1 (by show 1 < 3; omega) _ x1 rfl rfl n
      (by simp) (ix2 p k) hoff (by show n + k.val = c.val; simpa using hc)
  | 2 =>
    exact concatenate_apply_piece (t := (⟨2, ![a, N]⟩ : Shape)) (1 : Fin 2)
      [⟨(⟨2, ![a, n]⟩ : Shape), x0⟩, ⟨(⟨2, ![a, n]⟩ : Shape), x1⟩, ⟨(⟨2, ![a, n]⟩ : Shape), x2⟩] h (ix2 p c) 2 (by show 2 < 3; omega) _ x2 rfl rfl (n + n)
      (by simp) (ix2 p k) hoff (by show n + n + k.val = c.val; have : (2 : Fin 3).val = 2 := rfl; rw [this] at hc; omega)

end Cert.LibJoin3
-- ==== Proof.LibHostDense.lean ====
/-
  A dense layer and the rectifier as the host spells them, read as the layer of `LibDense` — general in the extents.

  On the host a layer is a `dot_general` that contracts the left operand's columns against the right's rows, plus the
  bias vector spread first to a 1 × `M` row and then over the `n` rows; the rectifier is the entrywise maximum with a
  scalar zero spread over the whole array. Over the extended reals the first is `lin h w (row b)` — entry (p, q) is
  `∑ k, h (p, k) · w (k, q) + b q` — and the second is `relu`.
-/
import proofs.«125208_j45500883534272_1_alg».proof.Proof.LibDense
import proofs.«125208_j45500883534272_1_alg».proof.Proof.LibPlainDot
import Idealize.ShloMosaic.Lib.Pipeline.Value

noncomputable section

open scoped BigOperators

namespace Cert.HostDense

open Idealize.ShloMosaic Idealize.ShloMosaic.ValueIdx Cert.Dense

/-- A bias vector of `M` entries as a 1 × `M` row. -/
def row {M : Nat} (b : (⟨1, ![M]⟩ : Shape).Idx → EReal) : (⟨2, ![1, M]⟩ : Shape).Idx → EReal := fun i => b (ix1 (i 1))

/-- The host's `dot_general` plus the bias vector spread over the rows is the layer: entry (p, q) is
    `∑ k, h (p, k) · w (k, q) + b q`. The four coordinate facts and the contraction's one axis are what a program's
    literal dimension numbers decide. -/
theorem dot_bias_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨1, ![M]⟩ : Shape) .f32)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2)) :
    (addf (Host.dotGeneral D prec h w)
        (broadcastInDim (⟨2, ![n, M]⟩ : Shape) ![0, 1] hb2 (broadcastInDim (⟨2, ![1, M]⟩ : Shape) ![1] hb1 b)) :
        FVec Ideal (⟨2, ![n, M]⟩ : Shape) .f32)
      = lin h w (row b) := by
  funext i
  obtain ⟨p, q, rfl⟩ : ∃ (p : Fin n) (q : Fin M), i = ix2 p q := ⟨i 0, i 1, eq_ix2 i⟩
  rw [lin_apply, addf_apply]
  have hdot : Host.dotGeneral D prec h w (ix2 p q) = ∑ k : Fin K, (h (ix2 p k) : EReal) * (w (ix2 k q) : EReal) := by
    simp only [Host.dotGeneral]
    exact PlainDot.dotGeneral_apply D hr hs l0 l1 r0 r1 prec _ h w p q
  have hbias : broadcastInDim (⟨2, ![n, M]⟩ : Shape) ![0, 1] hb2 (broadcastInDim (⟨2, ![1, M]⟩ : Shape) ![1] hb1 b) (ix2 p q)
      = b (ix1 q) := by
    rw [broadcastInDim_apply ![0, 1] hb2 _ (ix2 p q) (ix2 (0 : Fin 1) q) (fun a => by
      match a with
      | ⟨0, _⟩ => show 0 = if (1 : Nat) = 1 then 0 else p.val; rw [if_pos rfl]
      | ⟨1, _⟩ =>
        show q.val = if M = 1 then 0 else q.val
        split
        · have := q.isLt; omega
        · rfl)]
    exact broadcastInDim_apply ![1] hb1 b (ix2 (0 : Fin 1) q) (ix1 q) (fun a => by
      match a with
      | ⟨0, _⟩ =>
        show q.val = if M = 1 then 0 else q.val
        split
        · have := q.isLt; omega
        · rfl)
  rw [hdot, hbias]
  rfl

/-- The entrywise maximum with a scalar zero spread over the array is the rectifier. -/
theorem max_zero_eq {n M : Nat} (y : FVec Ideal (⟨2, ![n, M]⟩ : Shape) .f32)
    (hb0 : (⟨0, ![]⟩ : Shape).BroadcastsInDim (⟨2, ![n, M]⟩ : Shape) (![] : Fin 0 → Fin 2)) :
    (maximumf y (broadcastInDim (⟨2, ![n, M]⟩ : Shape) ![] hb0 (constant (F := Ideal) (⟨0, ![]⟩ : Shape) .f32 0x00000000#32)) :
        FVec Ideal (⟨2, ![n, M]⟩ : Shape) .f32)
      = relu y := by
  funext i
  rw [relu_apply, maximumf_apply]
  refine congrArg (max (y i)) ?_
  refine (broadcastInDim_apply (s := (⟨0, ![]⟩ : Shape)) (t := (⟨2, ![n, M]⟩ : Shape)) (![] : Fin 0 → Fin 2) hb0 _ i ix0
    (fun a => Fin.elim0 a)).trans ?_
  show Ideal.ofBits .f32 0x00000000#32 = 0
  exact Ideal.ofBits_zero_f32

end Cert.HostDense

end
-- ==== Proof.Layers.lean ====
/-
  The two maps of the graph layer, as functions of whole arrays on the extended reals, for any extents.

  `mlp2 z w₁ b₁ w₂ b₂` is the two-layer rectified perceptron applied to every row of `z`:
  entry (p, c) is `max (∑ⱼ max (∑ₖ z (p, k) · w₁ (k, j) + b₁ j) 0 · w₂ (j, c) + b₂ c) 0`.
  `node x e i w₁ b₁ w₂ b₂` is the node update: the rows of `x`, `e` and `i` are joined side by side, pass through a
  rectified layer and a plain layer, and `x` is added back:
  entry (p, c) is `∑ⱼ max (∑ₖ [x | e | i] (p, k) · w₁ (k, j) + b₁ j) 0 · w₂ (j, c) + b₂ c + x (p, c)`.
  Both act row by row: an entry in row `p` of the result depends on row `p` of the inputs only, so a block of rows of
  the result is the same map of the same block of rows of the inputs (`mlp2_rows`, `node_rows`).
-/
import proofs.«125208_j45500883534272_1_alg».proof.Proof.LibDense
import proofs.«125208_j45500883534272_1_alg».proof.Proof.LibJoin3
import proofs.«125208_j45500883534272_1_alg».proof.Proof.LibHostDense

noncomputable section

open scoped BigOperators

namespace Cert.Gcl

open Idealize.ShloMosaic Idealize.ShloMosaic.ValueIdx Cert.Dense Cert.HostDense

/-- The two-layer rectified perceptron on every row of `z`. -/
def mlp2 {n K H M : Nat} (z : (⟨2, ![n, K]⟩ : Shape).Idx → EReal) (w1 : (⟨2, ![K, H]⟩ : Shape).Idx → EReal)
    (b1 : (⟨1, ![H]⟩ : Shape).Idx → EReal) (w2 : (⟨2, ![H, M]⟩ : Shape).Idx → EReal) (b2 : (⟨1, ![M]⟩ : Shape).Idx → EReal) :
    (⟨2, ![n, M]⟩ : Shape).Idx → EReal :=
  relu (lin (relu (lin z w1 (row b1))) w2 (row b2))

/-- Row `p'` of the perceptron of `z'` is row `p` of the perceptron of `z` when row `p'` of `z'` is row `p` of `z`. -/
theorem mlp2_rows {n n' K H M : Nat} (z : (⟨2, ![n, K]⟩ : Shape).Idx → EReal) (z' : (⟨2, ![n', K]⟩ : Shape).Idx → EReal)
    (w1 : (⟨2, ![K, H]⟩ : Shape).Idx → EReal) (b1 : (⟨1, ![H]⟩ : Shape).Idx → EReal)
    (w2 : (⟨2, ![H, M]⟩ : Shape).Idx → EReal) (b2 : (⟨1, ![M]⟩ : Shape).Idx → EReal) (p : Fin n) (p' : Fin n') (c : Fin M)
    (hrow : ∀ k : Fin K, z' (ix2 p' k) = z (ix2 p k)) :
    mlp2 z' w1 b1 w2 b2 (ix2 p' c) = mlp2 z w1 b1 w2 b2 (ix2 p c) := by
  unfold mlp2
  rw [relu_apply, relu_apply]
  refine congrArg (max · 0) ?_
  refine lin_congr _ w2 (row b2) _ w2 (row b2) (ix2 p c) (ix2 p' c) (fun j => ?_) (fun _ => rfl) rfl
  show relu (lin z' w1 (row b1)) (ix2 p' j) = relu (lin z w1 (row b1)) (ix2 p j)
  rw [relu_apply, relu_apply]
  exact congrArg (max · 0) (lin_congr z w1 (row b1) z' w1 (row b1) (ix2 p j) (ix2 p' j) hrow (fun _ => rfl) rfl)

/-- The same fact at indices given by their coordinates: entry `j` of the perceptron of a block is entry `i` of the
    perceptron of the array when row `j 0` of the block is row `i 0` of the array, the columns agree, and the weights
    and biases are the same. -/
theorem mlp2_point {n n' K H M : Nat} (z : (⟨2, ![n, K]⟩ : Shape).Idx → EReal) (z' : (⟨2, ![n', K]⟩ : Shape).Idx → EReal)
    (w1 w1' : (⟨2, ![K, H]⟩ : Shape).Idx → EReal) (b1 b1' : (⟨1, ![H]⟩ : Shape).Idx → EReal)
    (w2 w2' : (⟨2, ![H, M]⟩ : Shape).Idx → EReal) (b2 b2' : (⟨1, ![M]⟩ : Shape).Idx → EReal)
    (i : (⟨2, ![n, M]⟩ : Shape).Idx) (j : (⟨2, ![n', M]⟩ : Shape).Idx)
    (hrow : ∀ k : Fin K, z' (ix2 (j 0) k) = z (ix2 (i 0) k)) (hcol : (j 1).val = (i 1).val)
    (hw1 : w1' = w1) (hb1 : b1' = b1) (hw2 : w2' = w2) (hb2 : b2' = b2) :
    mlp2 z' w1' b1' w2' b2' j = mlp2 z w1 b1 w2 b2 i := by
  subst hw1 hb1 hw2 hb2
  have ej : j = ix2 (j 0) (i 1) := (eq_ix2 j).trans (congrArg (ix2 (j 0)) (Fin.ext hcol))
  exact (congrArg (mlp2 z' w1' b1' w2' b2') ej).trans
    ((mlp2_rows z z' w1' b1' w2' b2' (i 0) (j 0) (i 1) hrow).trans (congrArg (mlp2 z w1' b1' w2' b2') (eq_ix2 i).symm))

/-- The node update: join, rectified layer, plain layer, and the rows of `x` added back. -/
def node {n a K H M : Nat} (x : (⟨2, ![n, M]⟩ : Shape).Idx → EReal) (z : (⟨2, ![n, K]⟩ : Shape).Idx → EReal)
    (w1 : (⟨2, ![K, H]⟩ : Shape).Idx → EReal) (b1 : (⟨1, ![H]⟩ : Shape).Idx → EReal)
    (w2 : (⟨2, ![H, M]⟩ : Shape).Idx → EReal) (b2 : (⟨1, ![M]⟩ : Shape).Idx → EReal) :
    (⟨2, ![n, M]⟩ : Shape).Idx → EReal :=
  fun i => lin (relu (lin z w1 (row b1))) w2 (row b2) i + x i

/-- Row `p'` of the node update of `(x', z')` is row `p` of the node update of `(x, z)` when row `p'` of `z'` is row `p`
    of `z` and entry (p', c) of `x'` is entry (p, c) of `x`. -/
theorem node_rows {n n' a K H M : Nat} (x : (⟨2, ![n, M]⟩ : Shape).Idx → EReal) (z : (⟨2, ![n, K]⟩ : Shape).Idx → EReal)
    (x' : (⟨2, ![n', M]⟩ : Shape).Idx → EReal) (z' : (⟨2, ![n', K]⟩ : Shape).Idx → EReal)
    (w1 : (⟨2, ![K, H]⟩ : Shape).Idx → EReal) (b1 : (⟨1, ![H]⟩ : Shape).Idx → EReal)
    (w2 : (⟨2, ![H, M]⟩ : Shape).Idx → EReal) (b2 : (⟨1, ![M]⟩ : Shape).Idx → EReal) (p : Fin n) (p' : Fin n') (c : Fin M)
    (hrow : ∀ k : Fin K, z' (ix2 p' k) = z (ix2 p k)) (hx : x' (ix2 p' c) = x (ix2 p c)) :
    node (a := a) x' z' w1 b1 w2 b2 (ix2 p' c) = node (a := a) x z w1 b1 w2 b2 (ix2 p c) := by
  unfold node
  rw [hx]
  refine congrArg (· + x (ix2 p c)) ?_
  refine lin_congr _ w2 (row b2) _ w2 (row b2) (ix2 p c) (ix2 p' c) (fun j => ?_) (fun _ => rfl) rfl
  show relu (lin z' w1 (row b1)) (ix2 p' j) = relu (lin z w1 (row b1)) (ix2 p j)
  rw [relu_apply, relu_apply]
  exact congrArg (max · 0) (lin_congr z w1 (row b1) z' w1 (row b1) (ix2 p j) (ix2 p' j) hrow (fun _ => rfl) rfl)

/-- The same fact at indices given by their coordinates. -/
theorem node_point {n n' a K H M : Nat} (x : (⟨2, ![n, M]⟩ : Shape).Idx → EReal) (z : (⟨2, ![n, K]⟩ : Shape).Idx → EReal)
    (x' : (⟨2, ![n', M]⟩ : Shape).Idx → EReal) (z' : (⟨2, ![n', K]⟩ : Shape).Idx → EReal)
    (w1 w1' : (⟨2, ![K, H]⟩ : Shape).Idx → EReal) (b1 b1' : (⟨1, ![H]⟩ : Shape).Idx → EReal)
    (w2 w2' : (⟨2, ![H, M]⟩ : Shape).Idx → EReal) (b2 b2' : (⟨1, ![M]⟩ : Shape).Idx → EReal)
    (i : (⟨2, ![n, M]⟩ : Shape).Idx) (j : (⟨2, ![n', M]⟩ : Shape).Idx)
    (hrow : ∀ k : Fin K, z' (ix2 (j 0) k) = z (ix2 (i 0) k)) (hcol : (j 1).val = (i 1).val)
    (hx : x' (ix2 (j 0) (i 1)) = x (ix2 (i 0) (i 1)))
    (hw1 : w1' = w1) (hb1 : b1' = b1) (hw2 : w2' = w2) (hb2 : b2' = b2) :
    node (a := a) x' z' w1' b1' w2' b2' j = node (a := a) x z w1 b1 w2 b2 i := by
  subst hw1 hb1 hw2 hb2
  have ej : j = ix2 (j 0) (i 1) := (eq_ix2 j).trans (congrArg (ix2 (j 0)) (Fin.ext hcol))
  exact (congrArg (node (a := a) x' z' w1' b1' w2' b2') ej).trans
    ((node_rows (a := a) x z x' z' w1' b1' w2' b2' (i 0) (j 0) (i 1) hrow hx).trans
      (congrArg (node (a := a) x z w1' b1' w2' b2') (eq_ix2 i).symm))

/-- Row `p'` of the join of three blocks is row `p` of the join of three arrays when each block's row `p'` is its
    array's row `p`. -/
theorem join3_rows {n n' a N : Nat} {α : Type} (x0 x1 x2 : (⟨2, ![n, a]⟩ : Shape).Idx → α) (y0 y1 y2 : (⟨2, ![n', a]⟩ : Shape).Idx → α)
    (h : Shape.Concatenates [(⟨2, ![n, a]⟩ : Shape), (⟨2, ![n, a]⟩ : Shape), (⟨2, ![n, a]⟩ : Shape)] (⟨2, ![n, N]⟩ : Shape) 1)
    (h' : Shape.Concatenates [(⟨2, ![n', a]⟩ : Shape), (⟨2, ![n', a]⟩ : Shape), (⟨2, ![n', a]⟩ : Shape)] (⟨2, ![n', N]⟩ : Shape) 1)
    (hN : N = 3 * a) (ha : 0 < a) (p : Fin n) (p' : Fin n')
    (e0 : ∀ k : Fin a, y0 (ix2 p' k) = x0 (ix2 p k)) (e1 : ∀ k : Fin a, y1 (ix2 p' k) = x1 (ix2 p k))
    (e2 : ∀ k : Fin a, y2 (ix2 p' k) = x2 (ix2 p k)) (c : Fin N) :
    concatenate (⟨2, ![n', N]⟩ : Shape) 1 [⟨(⟨2, ![n', a]⟩ : Shape), y0⟩, ⟨(⟨2, ![n', a]⟩ : Shape), y1⟩, ⟨(⟨2, ![n', a]⟩ : Shape), y2⟩] h' (ix2 p' c)
      = concatenate (⟨2, ![n, N]⟩ : Shape) 1 [⟨(⟨2, ![n, a]⟩ : Shape), x0⟩, ⟨(⟨2, ![n, a]⟩ : Shape), x1⟩, ⟨(⟨2, ![n, a]⟩ : Shape), x2⟩] h (ix2 p c) := by
  have hc := c.isLt
  have hj : c.val / a < 3 := Nat.div_lt_of_lt_mul (by rw [Nat.mul_comm]; omega)
  have hk : c.val % a < a := Nat.mod_lt _ ha
  have hck : (⟨c.val / a, hj⟩ : Fin 3).val * a + (⟨c.val % a, hk⟩ : Fin a).val = c.val := by
    show c.val / a * a + c.val % a = c.val
    rw [Nat.mul_comm]; exact Nat.div_add_mod _ _
  rw [LibJoin3.concatenate_cols3_apply y0 y1 y2 h' p' c ⟨c.val % a, hk⟩ ⟨c.val / a, hj⟩ hck,
    LibJoin3.concatenate_cols3_apply x0 x1 x2 h p c ⟨c.val % a, hk⟩ ⟨c.val / a, hj⟩ hck]
  generalize (⟨c.val / a, hj⟩ : Fin 3) = j
  match j with
  | 0 => exact e0 _
  | 1 => exact e1 _
  | 2 => exact e2 _

end Cert.Gcl

end
-- ==== Proof.KernelBody.lean ====
/-
  What each kernel body computes from the blocks it loads, on the extended reals.

  The two perceptron bodies load a block of rows `z`, the weights and the biases, and store
  `max (max (z · w₁ + b₁) 0 · w₂ + b₂) 0`: a change of float format is the identity on the extended reals and a matrix
  product into a zero accumulator is the plain product, so the stored block is `mlp2 z w₁ b₁ w₂ b₂`. The node body
  loads blocks of rows of `x`, of the edge sums and of the interaction sums, joins them side by side and stores
  `max ([x | e | i] · w₁ + b₁) 0 · w₂ + b₂ + x`: the node update of the joined block.
-/
import proofs.«125208_j45500883534272_1_alg».proof.Proof.Gen.KernelIdeal.Skeleton
import proofs.«125208_j45500883534272_1_alg».proof.Proof.LibDenseOps
import proofs.«125208_j45500883534272_1_alg».proof.Proof.Layers
import Idealize.ShloMosaic.Lib.ValueLayout

noncomputable section

open scoped BigOperators

namespace Cert.KernelIdeal.Body

open Cert.KernelIdeal Idealize.ShloMosaic Idealize.ShloMosaic.ValueIdx Cert.Dense Cert.HostDense Cert.Gcl
open Cert.KernelIdeal.Facts₀ Cert.KernelIdeal.Facts

/-! ## The dimension numbers of the four products: each contracts the left operand's columns against the right's rows -/

local macro "lhs_row" D:ident S:ident : tactic =>
  `(tactic| (unfold DotDims.lhsIdx
             rw [dif_neg (show ¬(0 : Fin (Shape.rank $S)) ∈ DotDims.lhsBatch $D by decide),
               dif_pos (show (0 : Fin (Shape.rank $S)) ∈ DotDims.lhsNonContracting $D by decide)]
             rfl))
local macro "rhs_col" D:ident S:ident : tactic =>
  `(tactic| (unfold DotDims.rhsIdx
             rw [dif_neg (show ¬(1 : Fin (Shape.rank $S)) ∈ DotDims.rhsBatch $D by decide),
               dif_pos (show (1 : Fin (Shape.rank $S)) ∈ DotDims.rhsNonContracting $D by decide)]
             rfl))

theorem e1_l0 (i : S6400x128.Idx) (q : dot_S6400x256_S256x128_S6400x128_1_0_0_1_n_n.contr.Idx) :
    (dot_S6400x256_S256x128_S6400x128_1_0_0_1_n_n.lhsIdx i q 0).val = (i 0).val := by
  lhs_row dot_S6400x256_S256x128_S6400x128_1_0_0_1_n_n S6400x256
theorem e1_r1 (i : S6400x128.Idx) (q : dot_S6400x256_S256x128_S6400x128_1_0_0_1_n_n.contr.Idx) :
    (dot_S6400x256_S256x128_S6400x128_1_0_0_1_n_n.rhsIdx i q 1).val = (i 1).val := by
  rhs_col dot_S6400x256_S256x128_S6400x128_1_0_0_1_n_n S256x128
theorem e2_l0 (i : S6400x128.Idx) (q : dot_S6400x128_S128x128_S6400x128_1_0_0_1_n_n.contr.Idx) :
    (dot_S6400x128_S128x128_S6400x128_1_0_0_1_n_n.lhsIdx i q 0).val = (i 0).val := by
  lhs_row dot_S6400x128_S128x128_S6400x128_1_0_0_1_n_n S6400x128
theorem e2_r1 (i : S6400x128.Idx) (q : dot_S6400x128_S128x128_S6400x128_1_0_0_1_n_n.contr.Idx) :
    (dot_S6400x128_S128x128_S6400x128_1_0_0_1_n_n.rhsIdx i q 1).val = (i 1).val := by
  rhs_col dot_S6400x128_S128x128_S6400x128_1_0_0_1_n_n S128x128
theorem n1_l0 (i : S5000x128.Idx) (q : dot_S5000x384_S384x128_S5000x128_1_0_0_1_n_n.contr.Idx) :
    (dot_S5000x384_S384x128_S5000x128_1_0_0_1_n_n.lhsIdx i q 0).val = (i 0).val := by
  lhs_row dot_S5000x384_S384x128_S5000x128_1_0_0_1_n_n S5000x384
theorem n1_r1 (i : S5000x128.Idx) (q : dot_S5000x384_S384x128_S5000x128_1_0_0_1_n_n.contr.Idx) :
    (dot_S5000x384_S384x128_S5000x128_1_0_0_1_n_n.rhsIdx i q 1).val = (i 1).val := by
  rhs_col dot_S5000x384_S384x128_S5000x128_1_0_0_1_n_n S384x128
theorem n2_l0 (i : S5000x128.Idx) (q : dot_S5000x128_S128x128_S5000x128_1_0_0_1_n_n.contr.Idx) :
    (dot_S5000x128_S128x128_S5000x128_1_0_0_1_n_n.lhsIdx i q 0).val = (i 0).val := by
  lhs_row dot_S5000x128_S128x128_S5000x128_1_0_0_1_n_n S5000x128
theorem n2_r1 (i : S5000x128.Idx) (q : dot_S5000x128_S128x128_S5000x128_1_0_0_1_n_n.contr.Idx) :
    (dot_S5000x128_S128x128_S5000x128_1_0_0_1_n_n.rhsIdx i q 1).val = (i 1).val := by
  rhs_col dot_S5000x128_S128x128_S5000x128_1_0_0_1_n_n S128x128

/-- A bias vector recast as a 1 × 128 row is the row of `Layers`. -/
theorem cast_row (b : FVec Ideal S128 .f32) : shapeCast S1x128 b shapeCasts_S128_S1x128 = row b := by
  funext i
  obtain ⟨z, q, rfl⟩ : ∃ (z : Fin 1) (q : Fin 128), i = ix2 z q := ⟨i 0, i 1, eq_ix2 i⟩
  exact shapeCast_a_1a_apply b shapeCasts_S128_S1x128 z q

/-! ## The perceptron bodies -/

/-- The first layer as the body spells it — the block and the weights cut to bf16, the product into zeros, the bias
    row spread over the rows, the maximum with a splat zero — is the rectified layer of the block. -/
theorem layer1_eq (v0 : Vec Ideal S6400x256 .f32) (v3 : Vec Ideal S256x128 .f32) (v5 : Vec Ideal S128 .f32) :
    (maximumf (addf (matmul dot_S6400x256_S256x128_S6400x128_1_0_0_1_n_n none
          (truncf .bf16 (shapeCast S6400x256 v0 shapeCasts_S6400x256_S6400x256) bitsLt_bf16_f32) (truncf .bf16 v3 bitsLt_bf16_f32)
          (constant S6400x128 .f32 0x00000000#32))
        (broadcastTo S6400x128 (shapeCast S1x128 v5 shapeCasts_S128_S1x128) broadcasts_S1x128_S6400x128))
      (broadcast S6400x128 (Scalar.ofBits (F := Ideal) .f32 0x00000000#32)) : FVec Ideal S6400x128 .f32)
      = relu (lin v0 v3 (row v5)) := by
  refine (DenseOps.matmul_bias_relu_eq dot_S6400x256_S256x128_S6400x128_1_0_0_1_n_n rfl rfl e1_l0
    (fun i q => dot_S6400x256_S256x128_S6400x128_1_0_0_1_n_n.lhsIdx_val_of_single rfl i q)
    (fun i q => dot_S6400x256_S256x128_S6400x128_1_0_0_1_n_n.rhsIdx_val_of_single rfl i q) e1_r1 none _ _ _ _).trans ?_
  rw [cast_row, shapeCast_self]
  rfl

/-- The second layer as the body spells it is the rectified layer of its (bf16-cut) input. -/
theorem layer2_eq (h : FVec Ideal S6400x128 .f32) (v13 : Vec Ideal S128x128 .f32) (v15 : Vec Ideal S128 .f32) :
    (maximumf (addf (matmul dot_S6400x128_S128x128_S6400x128_1_0_0_1_n_n none
          (truncf .bf16 h bitsLt_bf16_f32) (truncf .bf16 v13 bitsLt_bf16_f32) (constant S6400x128 .f32 0x00000000#32))
        (broadcastTo S6400x128 (shapeCast S1x128 v15 shapeCasts_S128_S1x128) broadcasts_S1x128_S6400x128))
      (broadcast S6400x128 (Scalar.ofBits (F := Ideal) .f32 0x00000000#32)) : FVec Ideal S6400x128 .f32)
      = relu (lin h v13 (row v15)) := by
  refine (DenseOps.matmul_bias_relu_eq dot_S6400x128_S128x128_S6400x128_1_0_0_1_n_n rfl rfl e2_l0
    (fun i q => dot_S6400x128_S128x128_S6400x128_1_0_0_1_n_n.lhsIdx_val_of_single rfl i q)
    (fun i q => dot_S6400x128_S128x128_S6400x128_1_0_0_1_n_n.rhsIdx_val_of_single rfl i q) e2_r1 none _ _ _ _).trans ?_
  rw [cast_row]
  rfl

/-- The edge perceptron's stored block. -/
theorem k0_pay1_eq (v0 : Vec Ideal S6400x256 .f32) (v3 : Vec Ideal S256x128 .f32) (v5 : Vec Ideal S128 .f32)
    (v13 : Vec Ideal S128x128 .f32) (v15 : Vec Ideal S128 .f32) :
    Gen.k0_pay1 (F := Ideal) v0 v3 v5 v13 v15 = mlp2 v0 v3 v5 v13 v15 := by
  unfold Gen.k0_pay1 mlp2
  dsimp only
  rw [layer1_eq v0 v3 v5]
  exact layer2_eq _ v13 v15

/-- The interaction perceptron's stored block: the same body. -/
theorem k1_pay1_eq (v0 : Vec Ideal S6400x256 .f32) (v3 : Vec Ideal S256x128 .f32) (v5 : Vec Ideal S128 .f32)
    (v13 : Vec Ideal S128x128 .f32) (v15 : Vec Ideal S128 .f32) :
    Gen.k1_pay1 (F := Ideal) v0 v3 v5 v13 v15 = mlp2 v0 v3 v5 v13 v15 := by
  unfold Gen.k1_pay1 mlp2
  dsimp only
  rw [layer1_eq v0 v3 v5]
  exact layer2_eq _ v13 v15

/-! ## The node body -/

/-- The block the node body joins: the three loaded blocks side by side. -/
def joined (v0 v1 v3 : Vec Ideal S5000x128 .f32) : FVec Ideal S5000x384 .f32 :=
  concatenate S5000x384 1 [⟨S5000x128, v0⟩, ⟨S5000x128, v1⟩, ⟨S5000x128, v3⟩] concatenates_S5000x128_S5000x128_S5000x128_S5000x384_d1

/-- The node body's first layer as it is spelt is the rectified layer of the joined block. -/
theorem nlayer1_eq (z : FVec Ideal S5000x384 .bf16) (v9 : Vec Ideal S384x128 .f32) (v11 : Vec Ideal S128 .f32) :
    (maximumf (addf (matmul dot_S5000x384_S384x128_S5000x128_1_0_0_1_n_n none z (truncf .bf16 v9 bitsLt_bf16_f32)
          (constant S5000x128 .f32 0x00000000#32))
        (broadcastTo S5000x128 (shapeCast S1x128 v11 shapeCasts_S128_S1x128) broadcasts_S1x128_S5000x128))
      (broadcast S5000x128 (Scalar.ofBits (F := Ideal) .f32 0x00000000#32)) : FVec Ideal S5000x128 .f32)
      = relu (lin z v9 (row v11)) := by
  refine (DenseOps.matmul_bias_relu_eq dot_S5000x384_S384x128_S5000x128_1_0_0_1_n_n rfl rfl n1_l0
    (fun i q => dot_S5000x384_S384x128_S5000x128_1_0_0_1_n_n.lhsIdx_val_of_single rfl i q)
    (fun i q => dot_S5000x384_S384x128_S5000x128_1_0_0_1_n_n.rhsIdx_val_of_single rfl i q) n1_r1 none _ _ _ _).trans ?_
  rw [cast_row]
  rfl

/-- Its second layer — the product into zeros plus the bias row spread over the rows, no rectifier — is the plain
    layer of its (bf16-cut) input. -/
theorem nlayer2_eq (h : FVec Ideal S5000x128 .f32) (v19 : Vec Ideal S128x128 .f32) (v21 : Vec Ideal S128 .f32) :
    (addf (matmul dot_S5000x128_S128x128_S5000x128_1_0_0_1_n_n none (truncf .bf16 h bitsLt_bf16_f32) (truncf .bf16 v19 bitsLt_bf16_f32)
          (constant S5000x128 .f32 0x00000000#32))
        (broadcastTo S5000x128 (shapeCast S1x128 v21 shapeCasts_S128_S1x128) broadcasts_S1x128_S5000x128) : FVec Ideal S5000x128 .f32)
      = lin h v19 (row v21) := by
  funext i
  obtain ⟨p, c, rfl⟩ : ∃ (p : Fin 5000) (c : Fin 128), i = ix2 p c := ⟨i 0, i 1, eq_ix2 i⟩
  rw [lin_apply, addf_apply]
  refine congrArg₂ (· + ·) ?_ ?_
  · exact PlainDot.matmul_zero_apply dot_S5000x128_S128x128_S5000x128_1_0_0_1_n_n rfl rfl n2_l0
      (fun i q => dot_S5000x128_S128x128_S5000x128_1_0_0_1_n_n.lhsIdx_val_of_single rfl i q)
      (fun i q => dot_S5000x128_S128x128_S5000x128_1_0_0_1_n_n.rhsIdx_val_of_single rfl i q) n2_r1 none
      (truncf .bf16 h bitsLt_bf16_f32) (truncf .bf16 v19 bitsLt_bf16_f32) p c
  · rw [broadcastTo_1b_ab_apply _ broadcasts_S1x128_S5000x128 p c, cast_row]

/-- The node body's stored block: the node update of the joined block. -/
theorem k2_pay1_eq (v0 v1 v3 : Vec Ideal S5000x128 .f32) (v9 : Vec Ideal S384x128 .f32) (v11 : Vec Ideal S128 .f32)
    (v19 : Vec Ideal S128x128 .f32) (v21 : Vec Ideal S128 .f32) :
    Gen.k2_pay1 (F := Ideal) v0 v1 v3 v9 v11 v19 v21 = node (a := 128) v0 (joined v0 v1 v3) v9 v11 v19 v21 := by
  unfold Gen.k2_pay1 node
  dsimp only
  rw [shapeCast_self, shapeCast_self, nlayer1_eq, nlayer2_eq]
  rfl

end Cert.KernelIdeal.Body

end
-- ==== Proof.EdgeArray.lean ====
/-
  The edge perceptron call's output array, for any contents `V` of the buffers when the call is entered.

  The grid has 100 points; point `t` fetches rows `6400·t … 6400·t + 6399` of the 640000 × 256 input, the whole weight
  matrices and bias vectors, and writes back rows `6400·t … 6400·t + 6399` of the 640000 × 128 output. What it writes
  is the perceptron of its block of rows, and the perceptron acts row by row, so the block written is the same block of
  the perceptron of the whole input. The 100 blocks tile the output: it ends holding `mlp2` of the input array.
-/
import proofs.«125208_j45500883534272_1_alg».proof.Proof.Gen.KernelIdeal.Frame
import proofs.«125208_j45500883534272_1_alg».proof.Proof.KernelBody

set_option maxRecDepth 16384

noncomputable section

namespace Cert.KernelIdeal.EdgeArray

open Cert.KernelIdeal Cert.KernelIdeal.Gen Cert.Gcl
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input and the output move one block of rows per point; the weights
    and biases stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The whole-array function the output ends holding. -/
abbrev G (c : Dev nD) : S640000x128.Idx → EReal :=
  mlp2 (n := 640000) (K := 256) (H := 128) (M := 128) (V c main_v22) (V c main_arg4) (V c main_arg5) (V c main_arg6) (V c main_arg7)

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S6400x256) hz2, View.ld_unit_zero (S := S256x128) hz2, View.ld_unit_zero (S := S128) hz1,
    View.ld_unit_zero (S := S128x128) hz2]
  rw [Body.k0_pay1_eq]
  obtain ⟨e0, e1, e2, e3, e4, e5, e6, e7, e8, e9⟩ := idx_facts t
  funext j
  show mlp2 (n := 6400) (K := 256) (H := 128) (M := 128)
      (fun y => V c main_v22 (((cfg0.win 0).blk t).view.emb y)) (fun y => V c main_arg4 (((cfg0.win 1).blk t).view.emb y))
      (fun y => V c main_arg5 (((cfg0.win 2).blk t).view.emb y)) (fun y => V c main_arg6 (((cfg0.win 3).blk t).view.emb y))
      (fun y => V c main_arg7 (((cfg0.win 4).blk t).view.emb y)) j
    = G V c (((cfg0.win 5).blk t).view.emb j)
  have h1 : (fun y => V c main_arg4 (((cfg0.win 1).blk t).view.emb y)) = V c main_arg4 :=
    funext fun y => congrArg (V c main_arg4) (funext fun a => Fin.ext (by
      match a with
      | ⟨0, _⟩ => show win0_1.index t (0 : Fin 2) * 256 + 1 * (y 0).val = (y 0).val; omega
      | ⟨1, _⟩ => show win0_1.index t (1 : Fin 2) * 128 + 1 * (y 1).val = (y 1).val; omega))
  have h2 : (fun y => V c main_arg5 (((cfg0.win 2).blk t).view.emb y)) = V c main_arg5 :=
    funext fun y => congrArg (V c main_arg5) (funext fun a => Fin.ext (by
      match a with
      | ⟨0, _⟩ => show win0_2.index t (0 : Fin 1) * 128 + 1 * (y 0).val = (y 0).val; omega))
  have h3 : (fun y => V c main_arg6 (((cfg0.win 3).blk t).view.emb y)) = V c main_arg6 :=
    funext fun y => congrArg (V c main_arg6) (funext fun a => Fin.ext (by
      match a with
      | ⟨0, _⟩ => show win0_3.index t (0 : Fin 2) * 128 + 1 * (y 0).val = (y 0).val; omega
      | ⟨1, _⟩ => show win0_3.index t (1 : Fin 2) * 128 + 1 * (y 1).val = (y 1).val; omega))
  have h4 : (fun y => V c main_arg7 (((cfg0.win 4).blk t).view.emb y)) = V c main_arg7 :=
    funext fun y => congrArg (V c main_arg7) (funext fun a => Fin.ext (by
      match a with
      | ⟨0, _⟩ => show win0_4.index t (0 : Fin 1) * 128 + 1 * (y 0).val = (y 0).val; omega))
  refine mlp2_point (n := 640000) (n' := 6400) (K := 256) (H := 128) (M := 128) (V c main_v22) _ (V c main_arg4) _ (V c main_arg5) _
    (V c main_arg6) _ (V c main_arg7) _ (((cfg0.win 5).blk t).view.emb j) j (fun k => ?_) ?_ h1 h2 h3 h4
  · refine congrArg (V c main_v22) (funext fun a => Fin.ext ?_)
    match a with
    | ⟨0, _⟩ => show win0_0.index t (0 : Fin 2) * 6400 + 1 * (j 0).val = win0_5.index t (0 : Fin 2) * 6400 + 1 * (j 0).val; omega
    | ⟨1, _⟩ => show win0_0.index t (1 : Fin 2) * 256 + 1 * k.val = k.val; omega
  · show (j 1).val = win0_5.index t (1 : Fin 2) * 128 + 1 * (j 1).val; omega

/-- An index of the output is in point `t`'s block iff each coordinate is in the block's range on its axis. -/
theorem mem_blk (t : Fin cfg0.N) (i : S640000x128.Idx) :
    i ∈ ((cfg0.win 5).blk t).view.set ↔ ∀ a : Fin 2, win0_5.index t a * S6400x128.size a ≤ (i a).val
      ∧ (i a).val < win0_5.index t a * S6400x128.size a + S6400x128.size a := by
  show i ∈ ((View.whole main_v38).slice (win0_5.rect t)).set ↔ _
  rw [View.set_slice_whole, Rect.mem_set_unit]
  exact Iff.rfl

/-- The output array after the call: `G`. Row `r` is written by point `r / 6400`. -/
theorem final (c : Dev nD) : (dat0 V c).arrAt 5 cfg0.N = G V c :=
  (dat0 V c).arrAt_eq_of_cover 5 (G V c) (fun t _ => flushed_eq V c t) fun i => by
    have hi0 : (i 0).val < 640000 := (i 0).isLt
    have hi1 : (i 1).val < 128 := (i 1).isLt
    have hN : grid0.N = 100 := N_0
    let t : Fin cfg0.N := ⟨(i 0).val / 6400, by show (i 0).val / 6400 < grid0.N; omega⟩
    obtain ⟨e0, e1, e2, e3, e4, e5, e6, e7, e8, e9⟩ := idx_facts t
    have ht : t.val = (i 0).val / 6400 := rfl
    refine ⟨t, flush0_5 t, ?_⟩
    rw [mem_blk]
    intro a
    match a with
    | ⟨0, _⟩ => show win0_5.index t (0 : Fin 2) * 6400 ≤ (i 0).val ∧ (i 0).val < win0_5.index t (0 : Fin 2) * 6400 + 6400; omega
    | ⟨1, _⟩ => show win0_5.index t (1 : Fin 2) * 128 ≤ (i 1).val ∧ (i 1).val < win0_5.index t (1 : Fin 2) * 128 + 128; omega

end Cert.KernelIdeal.EdgeArray

end
-- ==== Proof.IntArray.lean ====
/-
  The interaction perceptron call's output array, for any contents `V` of the buffers when the call is entered.

  The grid has 100 points; point `t` fetches rows `6400·t … 6400·t + 6399` of the 640000 × 256 input, the whole weight
  matrices and bias vectors, and writes back rows `6400·t … 6400·t + 6399` of the 640000 × 128 output. What it writes
  is the perceptron of its block of rows, and the perceptron acts row by row, so the block written is the same block of
  the perceptron of the whole input. The 100 blocks tile the output: it ends holding `mlp2` of the input array.
-/
import proofs.«125208_j45500883534272_1_alg».proof.Proof.Gen.KernelIdeal.Frame
import proofs.«125208_j45500883534272_1_alg».proof.Proof.KernelBody

set_option maxRecDepth 16384

noncomputable section

namespace Cert.KernelIdeal.IntArray

open Cert.KernelIdeal Cert.KernelIdeal.Gen Cert.Gcl
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input and the output move one block of rows per point; the weights
    and biases stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The whole-array function the output ends holding. -/
abbrev G (c : Dev nD) : S640000x128.Idx → EReal :=
  mlp2 (n := 640000) (K := 256) (H := 128) (M := 128) (V c main_v37) (V c main_arg8) (V c main_arg9) (V c main_arg10) (V c main_arg11)

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S6400x256) hz2, View.ld_unit_zero (S := S256x128) hz2, View.ld_unit_zero (S := S128) hz1,
    View.ld_unit_zero (S := S128x128) hz2]
  rw [Body.k1_pay1_eq]
  obtain ⟨e0, e1, e2, e3, e4, e5, e6, e7, e8, e9⟩ := idx_facts t
  funext j
  show mlp2 (n := 6400) (K := 256) (H := 128) (M := 128)
      (fun y => V c main_v37 (((cfg1.win 0).blk t).view.emb y)) (fun y => V c main_arg8 (((cfg1.win 1).blk t).view.emb y))
      (fun y => V c main_arg9 (((cfg1.win 2).blk t).view.emb y)) (fun y => V c main_arg10 (((cfg1.win 3).blk t).view.emb y))
      (fun y => V c main_arg11 (((cfg1.win 4).blk t).view.emb y)) j
    = G V c (((cfg1.win 5).blk t).view.emb j)
  have h1 : (fun y => V c main_arg8 (((cfg1.win 1).blk t).view.emb y)) = V c main_arg8 :=
    funext fun y => congrArg (V c main_arg8) (funext fun a => Fin.ext (by
      match a with
      | ⟨0, _⟩ => show win1_1.index t (0 : Fin 2) * 256 + 1 * (y 0).val = (y 0).val; omega
      | ⟨1, _⟩ => show win1_1.index t (1 : Fin 2) * 128 + 1 * (y 1).val = (y 1).val; omega))
  have h2 : (fun y => V c main_arg9 (((cfg1.win 2).blk t).view.emb y)) = V c main_arg9 :=
    funext fun y => congrArg (V c main_arg9) (funext fun a => Fin.ext (by
      match a with
      | ⟨0, _⟩ => show win1_2.index t (0 : Fin 1) * 128 + 1 * (y 0).val = (y 0).val; omega))
  have h3 : (fun y => V c main_arg10 (((cfg1.win 3).blk t).view.emb y)) = V c main_arg10 :=
    funext fun y => congrArg (V c main_arg10) (funext fun a => Fin.ext (by
      match a with
      | ⟨0, _⟩ => show win1_3.index t (0 : Fin 2) * 128 + 1 * (y 0).val = (y 0).val; omega
      | ⟨1, _⟩ => show win1_3.index t (1 : Fin 2) * 128 + 1 * (y 1).val = (y 1).val; omega))
  have h4 : (fun y => V c main_arg11 (((cfg1.win 4).blk t).view.emb y)) = V c main_arg11 :=
    funext fun y => congrArg (V c main_arg11) (funext fun a => Fin.ext (by
      match a with
      | ⟨0, _⟩ => show win1_4.index t (0 : Fin 1) * 128 + 1 * (y 0).val = (y 0).val; omega))
  refine mlp2_point (n := 640000) (n' := 6400) (K := 256) (H := 128) (M := 128) (V c main_v37) _ (V c main_arg8) _ (V c main_arg9) _
    (V c main_arg10) _ (V c main_arg11) _ (((cfg1.win 5).blk t).view.emb j) j (fun k => ?_) ?_ h1 h2 h3 h4
  · refine congrArg (V c main_v37) (funext fun a => Fin.ext ?_)
    match a with
    | ⟨0, _⟩ => show win1_0.index t (0 : Fin 2) * 6400 + 1 * (j 0).val = win1_5.index t (0 : Fin 2) * 6400 + 1 * (j 0).val; omega
    | ⟨1, _⟩ => show win1_0.index t (1 : Fin 2) * 256 + 1 * k.val = k.val; omega
  · show (j 1).val = win1_5.index t (1 : Fin 2) * 128 + 1 * (j 1).val; omega

/-- An index of the output is in point `t`'s block iff each coordinate is in the block's range on its axis. -/
theorem mem_blk (t : Fin cfg1.N) (i : S640000x128.Idx) :
    i ∈ ((cfg1.win 5).blk t).view.set ↔ ∀ a : Fin 2, win1_5.index t a * S6400x128.size a ≤ (i a).val
      ∧ (i a).val < win1_5.index t a * S6400x128.size a + S6400x128.size a := by
  show i ∈ ((View.whole main_v39).slice (win1_5.rect t)).set ↔ _
  rw [View.set_slice_whole, Rect.mem_set_unit]
  exact Iff.rfl

/-- The output array after the call: `G`. Row `r` is written by point `r / 6400`. -/
theorem final (c : Dev nD) : (dat1 V c).arrAt 5 cfg1.N = G V c :=
  (dat1 V c).arrAt_eq_of_cover 5 (G V c) (fun t _ => flushed_eq V c t) fun i => by
    have hi0 : (i 0).val < 640000 := (i 0).isLt
    have hi1 : (i 1).val < 128 := (i 1).isLt
    have hN : grid1.N = 100 := N_1
    let t : Fin cfg1.N := ⟨(i 0).val / 6400, by show (i 0).val / 6400 < grid1.N; omega⟩
    obtain ⟨e0, e1, e2, e3, e4, e5, e6, e7, e8, e9⟩ := idx_facts t
    have ht : t.val = (i 0).val / 6400 := rfl
    refine ⟨t, flush1_5 t, ?_⟩
    rw [mem_blk]
    intro a
    match a with
    | ⟨0, _⟩ => show win1_5.index t (0 : Fin 2) * 6400 ≤ (i 0).val ∧ (i 0).val < win1_5.index t (0 : Fin 2) * 6400 + 6400; omega
    | ⟨1, _⟩ => show win1_5.index t (1 : Fin 2) * 128 ≤ (i 1).val ∧ (i 1).val < win1_5.index t (1 : Fin 2) * 128 + 128; omega

end Cert.KernelIdeal.IntArray

end
-- ==== Proof.NodeArray.lean ====
/-
  The node call's output array, for any contents `V` of the buffers when the call is entered.

  The grid has 10 points; point `t` fetches rows `5000·t … 5000·t + 4999` of `x`, of the edge sums and of the interaction
  sums, the whole weight matrices and bias vectors, and writes back rows `5000·t … 5000·t + 4999` of the 50000 × 128
  output. What it writes is the node update of its three blocks joined side by side; a row of the join of three blocks
  is the same row of the join of the three arrays, and the node update acts row by row, so the block written is the same
  block of the node update of the whole arrays. The 10 blocks tile the output.
-/
import proofs.«125208_j45500883534272_1_alg».proof.Proof.Gen.KernelIdeal.Frame
import proofs.«125208_j45500883534272_1_alg».proof.Proof.KernelBody

set_option maxRecDepth 16384

noncomputable section

namespace Cert.KernelIdeal.NodeArray

open Cert.KernelIdeal Cert.KernelIdeal.Gen Cert.Gcl
open Idealize.ShloMosaic Idealize.ShloMosaic.TcCoe Idealize.ShloMosaic.ValueIdx Idealize.SL.Sem
open Idealize.ShloMosaic.Pipeline (Dat Cfg Window)
open Cert.KernelIdeal.Facts₀ Cert.KernelIdeal.Facts

variable (V : (c : Dev nD) → (b : Ref sig .tc) → Buf (Elt Ideal) ((c : Thread nD τ).loc b))
variable (hcat : Shape.Concatenates [(⟨2, ![50000, 128]⟩ : Shape), (⟨2, ![50000, 128]⟩ : Shape), (⟨2, ![50000, 128]⟩ : Shape)]
  (⟨2, ![50000, 384]⟩ : Shape) 1)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: `x`, the two sums and the output move one block of rows per point; the
    weights and biases stay at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- The three whole arrays joined side by side. -/
abbrev joinedAll (c : Dev nD) : (⟨2, ![50000, 384]⟩ : Shape).Idx → EReal :=
  concatenate (⟨2, ![50000, 384]⟩ : Shape) 1
    [⟨(⟨2, ![50000, 128]⟩ : Shape), V c main_arg0⟩, ⟨(⟨2, ![50000, 128]⟩ : Shape), V c main_v42⟩, ⟨(⟨2, ![50000, 128]⟩ : Shape), V c main_v45⟩] hcat

/-- The whole-array function the output ends holding. -/
abbrev G (c : Dev nD) : S50000x128.Idx → EReal :=
  node (n := 50000) (a := 128) (K := 384) (H := 128) (M := 128) (V c main_arg0) (joinedAll V hcat c)
    (V c main_arg12) (V c main_arg13) (V c main_arg14) (V c main_arg15)

/-- What point `t` writes back is block `t` of `G`. -/
theorem flushed_eq (c : Dev nD) (t : Fin cfg2.N) :
    (dat2 V c).flushed 7 t = ((cfg2.win 7).blk t).view.read (Elt Ideal) (G V hcat c) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S384x128) hz2, View.ld_unit_zero (S := S128) hz1,
    View.ld_unit_zero (S := S128x128) hz2]
  rw [Body.k2_pay1_eq]
  obtain ⟨e0, e1, e2, e3, e4, e5, e6, e7, e8, e9, e10, e11, e12, e13⟩ := idx_facts t
  funext j
  show node (n := 5000) (a := 128) (K := 384) (H := 128) (M := 128)
      (fun y => V c main_arg0 (((cfg2.win 0).blk t).view.emb y))
      (Body.joined (fun y => V c main_arg0 (((cfg2.win 0).blk t).view.emb y)) (fun y => V c main_v42 (((cfg2.win 1).blk t).view.emb y))
        (fun y => V c main_v45 (((cfg2.win 2).blk t).view.emb y)))
      (fun y => V c main_arg12 (((cfg2.win 3).blk t).view.emb y)) (fun y => V c main_arg13 (((cfg2.win 4).blk t).view.emb y))
      (fun y => V c main_arg14 (((cfg2.win 5).blk t).view.emb y)) (fun y => V c main_arg15 (((cfg2.win 6).blk t).view.emb y)) j
    = G V hcat c (((cfg2.win 7).blk t).view.emb j)
  have h3 : (fun y => V c main_arg12 (((cfg2.win 3).blk t).view.emb y)) = V c main_arg12 :=
    funext fun y => congrArg (V c main_arg12) (funext fun a => Fin.ext (by
      match a with
      | ⟨0, _⟩ => show win2_3.index t (0 : Fin 2) * 384 + 1 * (y 0).val = (y 0).val; omega
      | ⟨1, _⟩ => show win2_3.index t (1 : Fin 2) * 128 + 1 * (y 1).val = (y 1).val; omega))
  have h4 : (fun y => V c main_arg13 (((cfg2.win 4).blk t).view.emb y)) = V c main_arg13 :=
    funext fun y => congrArg (V c main_arg13) (funext fun a => Fin.ext (by
      match a with
      | ⟨0, _⟩ => show win2_4.index t (0 : Fin 1) * 128 + 1 * (y 0).val = (y 0).val; omega))
  have h5 : (fun y => V c main_arg14 (((cfg2.win 5).blk t).view.emb y)) = V c main_arg14 :=
    funext fun y => congrArg (V c main_arg14) (funext fun a => Fin.ext (by
      match a with
      | ⟨0, _⟩ => show win2_5.index t (0 : Fin 2) * 128 + 1 * (y 0).val = (y 0).val; omega
      | ⟨1, _⟩ => show win2_5.index t (1 : Fin 2) * 128 + 1 * (y 1).val = (y 1).val; omega))
  have h6 : (fun y => V c main_arg15 (((cfg2.win 6).blk t).view.emb y)) = V c main_arg15 :=
    funext fun y => congrArg (V c main_arg15) (funext fun a => Fin.ext (by
      match a with
      | ⟨0, _⟩ => show win2_6.index t (0 : Fin 1) * 128 + 1 * (y 0).val = (y 0).val; omega))
  -- a row of a block is the same row of its array, 5000·t rows further down
  have r0 : ∀ k : Fin 128, V c main_arg0 (((cfg2.win 0).blk t).view.emb (ix2 (j 0) k))
      = V c main_arg0 (ix2 ((((cfg2.win 7).blk t).view.emb j) 0) k) := fun k =>
    congrArg (V c main_arg0) (funext fun a => Fin.ext (by
      match a with
      | ⟨0, _⟩ => show win2_0.index t (0 : Fin 2) * 5000 + 1 * (j 0).val = win2_7.index t (0 : Fin 2) * 5000 + 1 * (j 0).val; omega
      | ⟨1, _⟩ => show win2_0.index t (1 : Fin 2) * 128 + 1 * k.val = k.val; omega))
  have r1 : ∀ k : Fin 128, V c main_v42 (((cfg2.win 1).blk t).view.emb (ix2 (j 0) k))
      = V c main_v42 (ix2 ((((cfg2.win 7).blk t).view.emb j) 0) k) := fun k =>
    congrArg (V c main_v42) (funext fun a => Fin.ext (by
      match a with
      | ⟨0, _⟩ => show win2_1.index t (0 : Fin 2) * 5000 + 1 * (j 0).val = win2_7.index t (0 : Fin 2) * 5000 + 1 * (j 0).val; omega
      | ⟨1, _⟩ => show win2_1.index t (1 : Fin 2) * 128 + 1 * k.val = k.val; omega))
  have r2 : ∀ k : Fin 128, V c main_v45 (((cfg2.win 2).blk t).view.emb (ix2 (j 0) k))
      = V c main_v45 (ix2 ((((cfg2.win 7).blk t).view.emb j) 0) k) := fun k =>
    congrArg (V c main_v45) (funext fun a => Fin.ext (by
      match a with
      | ⟨0, _⟩ => show win2_2.index t (0 : Fin 2) * 5000 + 1 * (j 0).val = win2_7.index t (0 : Fin 2) * 5000 + 1 * (j 0).val; omega
      | ⟨1, _⟩ => show win2_2.index t (1 : Fin 2) * 128 + 1 * k.val = k.val; omega))
  have hc1 : (j 1).val = ((((cfg2.win 7).blk t).view.emb j) 1).val := by
    show (j 1).val = win2_7.index t (1 : Fin 2) * 128 + 1 * (j 1).val; omega
  refine node_point (n := 50000) (n' := 5000) (a := 128) (K := 384) (H := 128) (M := 128) (V c main_arg0) (joinedAll V hcat c) _ _
    (V c main_arg12) _ (V c main_arg13) _ (V c main_arg14) _ (V c main_arg15) _ (((cfg2.win 7).blk t).view.emb j) j (fun k => ?_) hc1 ?_
    h3 h4 h5 h6
  · exact join3_rows (n := 50000) (n' := 5000) (a := 128) (N := 384) (V c main_arg0) (V c main_v42) (V c main_v45) _ _ _ hcat
      Gen.concatenates_S5000x128_S5000x128_S5000x128_S5000x384_d1 rfl (by decide) ((((cfg2.win 7).blk t).view.emb j) 0) (j 0) r0 r1 r2 k
  · exact r0 _

/-- An index of the output is in point `t`'s block iff each coordinate is in the block's range on its axis. -/
theorem mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v46).slice (win2_7.rect t)).set ↔ _
  rw [View.set_slice_whole, Rect.mem_set_unit]
  exact Iff.rfl

/-- The output array after the call: `G`. Row `r` is written by point `r / 5000`. -/
theorem final (c : Dev nD) : (dat2 V c).arrAt 7 cfg2.N = G V hcat c :=
  (dat2 V c).arrAt_eq_of_cover 7 (G V hcat c) (fun t _ => flushed_eq V hcat c t) fun i => by
    have hi0 : (i 0).val < 50000 := (i 0).isLt
    have hi1 : (i 1).val < 128 := (i 1).isLt
    have hN : grid2.N = 10 := N_2
    let t : Fin cfg2.N := ⟨(i 0).val / 5000, by show (i 0).val / 5000 < grid2.N; omega⟩
    obtain ⟨e0, e1, e2, e3, e4, e5, e6, e7, e8, e9, e10, e11, e12, e13⟩ := idx_facts t
    have ht : t.val = (i 0).val / 5000 := rfl
    refine ⟨t, flush2_7 t, ?_⟩
    rw [mem_blk]
    intro a
    match a with
    | ⟨0, _⟩ => show win2_7.index t (0 : Fin 2) * 5000 ≤ (i 0).val ∧ (i 0).val < win2_7.index t (0 : Fin 2) * 5000 + 5000; omega
    | ⟨1, _⟩ => show win2_7.index t (1 : Fin 2) * 128 ≤ (i 1).val ∧ (i 1).val < win2_7.index t (1 : Fin 2) * 128 + 128; omega

end Cert.KernelIdeal.NodeArray

end
-- ==== Proof.RefStages.lean ====
/-
  The reference's three dense stages, read as the maps of `Layers` of their (unopened) input stages.

  The reference gathers and joins the edge inputs (stage `val_main_v22`) and the interaction inputs (`val_main_v47`),
  applies the two-layer rectified perceptron to each (`val_main_v32`, `val_main_v57`), sums the results per node, joins
  them with `x` (`val_main_v64`) and applies the node update (`val_main_v74`). On the extended reals each `dot_general`
  plus spread bias is a layer and each maximum with a spread zero the rectifier, so
  `val_main_v32 = mlp2 val_main_v22 …`, `val_main_v57 = mlp2 val_main_v47 …`, `val_main_v74 = node x val_main_v64 …`.
  The gathers, joins and per-node sums are never opened.
-/
import proofs.«125208_j45500883534272_1_alg».proof.Proof.Gen.ReferenceIdeal.Read
import proofs.«125208_j45500883534272_1_alg».proof.Proof.Layers

noncomputable section

namespace Cert.ReferenceIdeal.Stages

open Cert.ReferenceIdeal Cert.ReferenceIdeal.Read Cert.Gcl Cert.Dense Cert.HostDense
open Idealize.ShloMosaic Idealize.ShloMosaic.ValueIdx
open Cert.ReferenceIdeal.Facts₀ Cert.ReferenceIdeal.Facts

/-- The edge features: the perceptron of the gathered and joined edge inputs. -/
theorem edge_eq (x0 : (⟨S50000x128, .f32⟩ : BufTy).Contents (Elt Ideal)) (x2 : (⟨S2x640000, .i32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v32 (F := Ideal) x0 x2 x4 x5 x6 x7
      = mlp2 (n := 640000) (K := 256) (H := 128) (M := 128) (val_main_v22 (F := Ideal) x0 x2) x4 x5 x6 x7 := by
  unfold val_main_v32 val_main_v31 val_main_v30 val_main_v29 val_main_v28 val_main_call1_v0 val_main_call1_cst
  rw [dot_bias_eq dot_S640000x128_S128x128_S640000x128_1_0_0_1_n_n rfl rfl lhs_main_v28_0 lhs_main_v28_1 rhs_main_v28_0
      rhs_main_v28_1 none _ x6 x7 bcast_S128_S1x128_1 bcast_S1x128_S640000x128_0_1, max_zero_eq _ bcast_S_S640000x128]
  unfold val_main_v27 val_main_v26 val_main_v25 val_main_v24 val_main_v23 val_main_call0_v0 val_main_call0_cst
  rw [dot_bias_eq dot_S640000x256_S256x128_S640000x128_1_0_0_1_n_n rfl rfl lhs_main_v23_0 lhs_main_v23_1 rhs_main_v23_0
      rhs_main_v23_1 none _ x4 x5 bcast_S128_S1x128_1 bcast_S1x128_S640000x128_0_1, max_zero_eq _ bcast_S_S640000x128]
  rfl

/-- The interaction features: the perceptron of the gathered and joined interaction inputs. -/
theorem int_eq (x0 : (⟨S50000x128, .f32⟩ : BufTy).Contents (Elt Ideal)) (x1 : (⟨S50000x128, .f32⟩ : BufTy).Contents (Elt Ideal)) (x3 : (⟨S2x640000, .i32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v57 (F := Ideal) x0 x1 x3 x8 x9 x10 x11
      = mlp2 (n := 640000) (K := 256) (H := 128) (M := 128) (val_main_v47 (F := Ideal) x0 x1 x3) x8 x9 x10 x11 := by
  unfold val_main_v57 val_main_v56 val_main_v55 val_main_v54 val_main_v53 val_main_call3_v0 val_main_call3_cst
  rw [dot_bias_eq dot_S640000x128_S128x128_S640000x128_1_0_0_1_n_n rfl rfl lhs_main_v53_0 lhs_main_v53_1 rhs_main_v53_0
      rhs_main_v53_1 none _ x10 x11 bcast_S128_S1x128_1 bcast_S1x128_S640000x128_0_1, max_zero_eq _ bcast_S_S640000x128]
  unfold val_main_v52 val_main_v51 val_main_v50 val_main_v49 val_main_v48 val_main_call2_v0 val_main_call2_cst
  rw [dot_bias_eq dot_S640000x256_S256x128_S640000x128_1_0_0_1_n_n rfl rfl lhs_main_v48_0 lhs_main_v48_1 rhs_main_v48_0
      rhs_main_v48_1 none _ x8 x9 bcast_S128_S1x128_1 bcast_S1x128_S640000x128_0_1, max_zero_eq _ bcast_S_S640000x128]
  rfl

/-- The node output: the node update of `x` and the join of `x` with the two per-node sums. -/
theorem node_eq (x0 : (⟨S50000x128, .f32⟩ : BufTy).Contents (Elt Ideal)) (x1 : (⟨S50000x128, .f32⟩ : BufTy).Contents (Elt Ideal)) (x2 : (⟨S2x640000, .i32⟩ : BufTy).Contents (Elt Ideal)) (x3 : (⟨S2x640000, .i32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S384x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v74 (F := Ideal) x0 x1 x2 x3 x4 x5 x6 x7 x8 x9 x10 x11 x12 x13 x14 x15
      = node (n := 50000) (a := 128) (K := 384) (H := 128) (M := 128) x0
          (val_main_v64 (F := Ideal) x0 x1 x2 x3 x4 x5 x6 x7 x8 x9 x10 x11) x12 x13 x14 x15 := by
  unfold val_main_v74 val_main_v73 val_main_v72 val_main_v71 val_main_v70
  rw [dot_bias_eq dot_S50000x128_S128x128_S50000x128_1_0_0_1_n_n rfl rfl lhs_main_v70_0 lhs_main_v70_1 rhs_main_v70_0
      rhs_main_v70_1 none _ x14 x15 bcast_S128_S1x128_1 bcast_S1x128_S50000x128_0_1]
  unfold val_main_v69 val_main_v68 val_main_v67 val_main_v66 val_main_v65 val_main_call4_v0 val_main_call4_cst
  rw [dot_bias_eq dot_S50000x384_S384x128_S50000x128_1_0_0_1_n_n rfl rfl lhs_main_v65_0 lhs_main_v65_1 rhs_main_v65_0
      rhs_main_v65_1 none _ x12 x13 bcast_S128_S1x128_1 bcast_S1x128_S50000x128_0_1, max_zero_eq _ bcast_S_S50000x128]
  rfl

end Cert.ReferenceIdeal.Stages

end
-- ==== Proof.KernelHost.lean ====
/-
  The two results of the idealized kernel as the reference's stages of the arguments.

  The buffers at each boundary of @main are a fold from the launch memory. Read at the buffers the calls use: the
  first host stretch leaves the gathered and joined edge and interaction inputs — the same operations, in the same
  order, as the reference's stages `val_main_v22` and `val_main_v47` — and the two row-index vectors; the weights and
  biases are as launched. The edge call leaves `mlp2` of its input in `main_v38`, the interaction call in `main_v39`;
  the second stretch sums each per node with the same accumulating scatter as the reference (`val_main_v60`,
  `val_main_v63`); the node call leaves the node update of `x` and the two sums. With the reference's dense stages read
  as the same maps (`Stages`), the node output is `val_main_v74` and the edge features are `val_main_v32` of the
  arguments.
-/
import proofs.«125208_j45500883534272_1_alg».proof.Proof.Gen.KernelIdeal.Frame
import proofs.«125208_j45500883534272_1_alg».proof.Proof.EdgeArray
import proofs.«125208_j45500883534272_1_alg».proof.Proof.IntArray
import proofs.«125208_j45500883534272_1_alg».proof.Proof.NodeArray
import proofs.«125208_j45500883534272_1_alg».proof.Proof.RefStages

set_option maxRecDepth 16384

noncomputable section

namespace Cert.KernelIdeal.HostSide

open Cert.KernelIdeal Cert.KernelIdeal.Gen Cert.Gcl Cert.ReferenceIdeal.Read
open Idealize.ShloMosaic Idealize.ShloMosaic.TcCoe Idealize.ShloMosaic.StableHlo Idealize.SL.Sem
open Cert.KernelIdeal.Facts₀ Cert.KernelIdeal.Facts

variable (m : (ℓ : Loc nD τ sig) → Buf (Elt Ideal) ℓ) (ρ : Dev nD → PrngReg)

/-! ## After the first host stretch -/

theorem W1_v22 (c : Dev nD) : W1 m ρ c (Proc.devRef .tc main_v22) = val_main_v22 (F := Ideal) (m ((c : Thread nD τ).loc main_arg0)) (m ((c : Thread nD τ).loc main_arg2)) := by
  show StableHlo.after hostOps0 (W0 m ρ c) (Proc.devRef .tc main_v22) = _
  after_results_simp
  rfl

theorem W1_v37 (c : Dev nD) : W1 m ρ c (Proc.devRef .tc main_v37) = val_main_v47 (F := Ideal) (m ((c : Thread nD τ).loc main_arg0)) (m ((c : Thread nD τ).loc main_arg1)) (m ((c : Thread nD τ).loc main_arg3)) := by
  show StableHlo.after hostOps0 (W0 m ρ c) (Proc.devRef .tc main_v37) = _
  after_results_simp
  rfl

theorem W1_v1 (c : Dev nD) : W1 m ρ c (Proc.devRef .tc main_v1) = val_main_v1 (F := Ideal) (m ((c : Thread nD τ).loc main_arg2)) := by
  show StableHlo.after hostOps0 (W0 m ρ c) (Proc.devRef .tc main_v1) = _
  after_results_simp
  rfl

theorem W1_v5 (c : Dev nD) : W1 m ρ c (Proc.devRef .tc main_v5) = val_main_v5 (F := Ideal) (m ((c : Thread nD τ).loc main_arg3)) := by
  show StableHlo.after hostOps0 (W0 m ρ c) (Proc.devRef .tc main_v5) = _
  after_results_simp
  rfl

/-- An argument the first stretch does not write is as launched. -/
local macro "w1_arg" : tactic =>
  `(tactic| (show StableHlo.after hostOps0 (W0 _ _ _) _ = _
             after_results_simp))

theorem W1_arg0 (c : Dev nD) : W1 m ρ c (Proc.devRef .tc main_arg0) = m ((c : Thread nD τ).loc main_arg0) := by w1_arg
theorem W1_arg4 (c : Dev nD) : W1 m ρ c (Proc.devRef .tc main_arg4) = m ((c : Thread nD τ).loc main_arg4) := by w1_arg
theorem W1_arg5 (c : Dev nD) : W1 m ρ c (Proc.devRef .tc main_arg5) = m ((c : Thread nD τ).loc main_arg5) := by w1_arg
theorem W1_arg6 (c : Dev nD) : W1 m ρ c (Proc.devRef .tc main_arg6) = m ((c : Thread nD τ).loc main_arg6) := by w1_arg
theorem W1_arg7 (c : Dev nD) : W1 m ρ c (Proc.devRef .tc main_arg7) = m ((c : Thread nD τ).loc main_arg7) := by w1_arg
theorem W1_arg8 (c : Dev nD) : W1 m ρ c (Proc.devRef .tc main_arg8) = m ((c : Thread nD τ).loc main_arg8) := by w1_arg
theorem W1_arg9 (c : Dev nD) : W1 m ρ c (Proc.devRef .tc main_arg9) = m ((c : Thread nD τ).loc main_arg9) := by w1_arg
theorem W1_arg10 (c : Dev nD) : W1 m ρ c (Proc.devRef .tc main_arg10) = m ((c : Thread nD τ).loc main_arg10) := by w1_arg
theorem W1_arg11 (c : Dev nD) : W1 m ρ c (Proc.devRef .tc main_arg11) = m ((c : Thread nD τ).loc main_arg11) := by w1_arg
theorem W1_arg12 (c : Dev nD) : W1 m ρ c (Proc.devRef .tc main_arg12) = m ((c : Thread nD τ).loc main_arg12) := by w1_arg
theorem W1_arg13 (c : Dev nD) : W1 m ρ c (Proc.devRef .tc main_arg13) = m ((c : Thread nD τ).loc main_arg13) := by w1_arg
theorem W1_arg14 (c : Dev nD) : W1 m ρ c (Proc.devRef .tc main_arg14) = m ((c : Thread nD τ).loc main_arg14) := by w1_arg
theorem W1_arg15 (c : Dev nD) : W1 m ρ c (Proc.devRef .tc main_arg15) = m ((c : Thread nD τ).loc main_arg15) := by w1_arg

/-! ## The edge call and the interaction call -/

/-- The edge features after the edge call. -/
theorem W2_v38 (c : Dev nD) : W2 m ρ c (Proc.devRef .tc main_v38)
    = val_main_v32 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  refine ((W2_arr m ρ c 5).trans (EdgeArray.final (V1 m ρ) c)).trans ?_
  show mlp2 (n := 640000) (K := 256) (H := 128) (M := 128) (W1 m ρ c (Proc.devRef .tc main_v22)) (W1 m ρ c (Proc.devRef .tc main_arg4))
    (W1 m ρ c (Proc.devRef .tc main_arg5)) (W1 m ρ c (Proc.devRef .tc main_arg6)) (W1 m ρ c (Proc.devRef .tc main_arg7)) = _
  rw [W1_v22, W1_arg4, W1_arg5, W1_arg6, W1_arg7]
  exact (Cert.ReferenceIdeal.Stages.edge_eq _ _ _ _ _ _).symm

/-- The interaction features after the interaction call. -/
theorem W3_v39 (c : Dev nD) : W3 m ρ c (Proc.devRef .tc main_v39)
    = val_main_v57 (F := Ideal) (m ((c : Thread nD τ).loc main_arg0)) (m ((c : Thread nD τ).loc main_arg1)) (m ((c : Thread nD τ).loc main_arg3)) (m ((c : Thread nD τ).loc main_arg8)) (m ((c : Thread nD τ).loc main_arg9)) (m ((c : Thread nD τ).loc main_arg10)) (m ((c : Thread nD τ).loc main_arg11)) := by
  refine ((W3_arr m ρ c 5).trans (IntArray.final (V2 m ρ) c)).trans ?_
  show mlp2 (n := 640000) (K := 256) (H := 128) (M := 128) (W2 m ρ c (Proc.devRef .tc main_v37)) (W2 m ρ c (Proc.devRef .tc main_arg8))
    (W2 m ρ c (Proc.devRef .tc main_arg9)) (W2 m ρ c (Proc.devRef .tc main_arg10)) (W2 m ρ c (Proc.devRef .tc main_arg11)) = _
  rw [W2_of_ne m ρ c main_v37 (by decide), W2_of_ne m ρ c main_arg8 (by decide), W2_of_ne m ρ c main_arg9 (by decide),
    W2_of_ne m ρ c main_arg10 (by decide), W2_of_ne m ρ c main_arg11 (by decide),
    W1_v37, W1_arg8, W1_arg9, W1_arg10, W1_arg11]
  exact (Cert.ReferenceIdeal.Stages.int_eq _ _ _ _ _ _ _).symm

/-- A buffer neither call uses holds after them what it held after the first stretch. -/
theorem W3_of_W1 (c : Dev nD) (b : Ref sig .tc) (h0 : ∀ w, Pipeline.arrRef spec0 w ≠ b) (h1 : ∀ w, Pipeline.arrRef spec1 w ≠ b) :
    W3 m ρ c (Proc.devRef .tc b) = W1 m ρ c (Proc.devRef .tc b) :=
  (W3_of_ne m ρ c b h1).trans (W2_of_ne m ρ c b h0)

theorem W3_v38 (c : Dev nD) : W3 m ρ c (Proc.devRef .tc main_v38)
    = val_main_v32 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) :=
  (W3_of_ne m ρ c main_v38 (by decide)).trans (W2_v38 m ρ c)

/-! ## After the second host stretch -/

/-- The edge sums per node: the reference's accumulating scatter of the edge features. -/
theorem W4_v42 (c : Dev nD) : W4 m ρ c (Proc.devRef .tc main_v42)
    = val_main_v60 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W3 m ρ c) (Proc.devRef .tc main_v42) = _
  after_results
  rw [W3_v38, W3_of_W1 m ρ c main_v1 (by decide) (by decide), W1_v1]
  rfl

/-- The interaction sums per node. -/
theorem W4_v45 (c : Dev nD) : W4 m ρ c (Proc.devRef .tc main_v45)
    = val_main_v63 (F := Ideal) (m ((c : Thread nD τ).loc main_arg0)) (m ((c : Thread nD τ).loc main_arg1)) (m ((c : Thread nD τ).loc main_arg3)) (m ((c : Thread nD τ).loc main_arg8)) (m ((c : Thread nD τ).loc main_arg9)) (m ((c : Thread nD τ).loc main_arg10)) (m ((c : Thread nD τ).loc main_arg11)) := by
  show StableHlo.after hostOps2 (W3 m ρ c) (Proc.devRef .tc main_v45) = _
  after_results
  rw [W3_v39, W3_of_W1 m ρ c main_v5 (by decide) (by decide), W1_v5]
  rfl

/-- An argument nothing before the node call writes is as launched when the node call is entered. -/
local macro "w4_arg" W1a:ident : tactic =>
  `(tactic| (show StableHlo.after hostOps2 (W3 _ _ _) _ = _
             after_results
             exact (W3_of_W1 _ _ _ _ (by decide) (by decide)).trans ($W1a _ _ _)))

theorem W4_arg0 (c : Dev nD) : W4 m ρ c (Proc.devRef .tc main_arg0) = m ((c : Thread nD τ).loc main_arg0) := by w4_arg W1_arg0
theorem W4_arg12 (c : Dev nD) : W4 m ρ c (Proc.devRef .tc main_arg12) = m ((c : Thread nD τ).loc main_arg12) := by w4_arg W1_arg12
theorem W4_arg13 (c : Dev nD) : W4 m ρ c (Proc.devRef .tc main_arg13) = m ((c : Thread nD τ).loc main_arg13) := by w4_arg W1_arg13
theorem W4_arg14 (c : Dev nD) : W4 m ρ c (Proc.devRef .tc main_arg14) = m ((c : Thread nD τ).loc main_arg14) := by w4_arg W1_arg14
theorem W4_arg15 (c : Dev nD) : W4 m ρ c (Proc.devRef .tc main_arg15) = m ((c : Thread nD τ).loc main_arg15) := by w4_arg W1_arg15

/-! ## The two results -/

/-- The edge features at the end: no later operation writes them. -/
theorem edge_result (c : Dev nD) : W5 m ρ c (Proc.devRef .tc main_v38)
    = val_main_v32 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W5_of_ne m ρ c main_v38 (by decide)).trans ?_
  show StableHlo.after hostOps2 (W3 m ρ c) (Proc.devRef .tc main_v38) = _
  after_results
  exact W3_v38 m ρ c

/-- The node output at the end. -/
theorem node_result (c : Dev nD) : W5 m ρ c (Proc.devRef .tc main_v46)
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W5_arr m ρ c 7).trans (NodeArray.final (V4 m ρ)
    Cert.ReferenceIdeal.Facts₀.concatenates_S50000x128_S50000x128_S50000x128_S50000x384_d1 c)).trans ?_
  show node (n := 50000) (a := 128) (K := 384) (H := 128) (M := 128) (W4 m ρ c (Proc.devRef .tc main_arg0))
      (concatenate (⟨2, ![50000, 384]⟩ : Shape) 1
        [⟨(⟨2, ![50000, 128]⟩ : Shape), W4 m ρ c (Proc.devRef .tc main_arg0)⟩, ⟨(⟨2, ![50000, 128]⟩ : Shape), W4 m ρ c (Proc.devRef .tc main_v42)⟩,
          ⟨(⟨2, ![50000, 128]⟩ : Shape), W4 m ρ c (Proc.devRef .tc main_v45)⟩]
        Cert.ReferenceIdeal.Facts₀.concatenates_S50000x128_S50000x128_S50000x128_S50000x384_d1)
      (W4 m ρ c (Proc.devRef .tc main_arg12)) (W4 m ρ c (Proc.devRef .tc main_arg13)) (W4 m ρ c (Proc.devRef .tc main_arg14))
      (W4 m ρ c (Proc.devRef .tc main_arg15)) = _
  rw [W4_arg0, W4_v42, W4_v45, W4_arg12, W4_arg13, W4_arg14, W4_arg15]
  exact (Cert.ReferenceIdeal.Stages.node_eq _ _ _ _ _ _ _ _ _ _ _ _ _ _ _ _).symm

end Cert.KernelIdeal.HostSide

end
-- ==== Proof.lean ====
/-
  One layer of a graph network with two kinds of edges, as a kernel of three calls against its plain reference,
  on the extended reals.

  Both programs gather the rows of `x` (and of `int_x`) at the endpoints of each edge and of each interaction and
  join them in pairs; apply a two-layer rectified perceptron to every joined row; sum the edge and the interaction
  features into the row of their first endpoint; and update every node from the join of its row of `x` with the two
  sums by a rectified layer, a plain layer and the row of `x` added back. They return the node update and the edge
  features. The kernel does the three dense maps in calls that work on blocks of rows, with the operands cut to
  bf16 on the way into each matrix product; the gathers, joins and per-node sums are the same host operations in both.

  On the extended reals a change of float format is the identity and a matrix product into zeros is the plain
  product, and each dense map acts row by row, so every block a call writes is the same block of the map of the whole
  array (`EdgeArray`, `IntArray`, `NodeArray` over `KernelBody` and `Layers`). The reference's dense stages are the same
  maps of their input stages (`RefStages`). The inputs of the maps are the same host operations of the arguments in
  both programs (`KernelHost`), so the two results agree entry by entry — no property of the inputs is used.
  The frames of the two kernel programs are the generated ones; the reference's is its generated run with the results
  dropped; the idealization rewrote nothing, so `preserves` has nothing to state.
-/
import proofs.«125208_j45500883534272_1_alg».proof.Defs
import proofs.«125208_j45500883534272_1_alg».proof.Proof.Gen.Kernel
import proofs.«125208_j45500883534272_1_alg».proof.Proof.Gen.Kernel.Frame
import proofs.«125208_j45500883534272_1_alg».proof.Proof.Gen.KernelIdeal
import proofs.«125208_j45500883534272_1_alg».proof.Proof.Gen.KernelIdeal.Frame
import proofs.«125208_j45500883534272_1_alg».proof.Proof.Gen.ReferenceIdeal
import proofs.«125208_j45500883534272_1_alg».proof.Proof.Gen.ReferenceIdeal.Run
import proofs.«125208_j45500883534272_1_alg».proof.Proof.Gen.ReferenceIdeal.Read
import proofs.«125208_j45500883534272_1_alg».proof.Proof.Gen.Pre_finite_inputs
import proofs.«125208_j45500883534272_1_alg».proof.Proof.KernelRun
import proofs.«125208_j45500883534272_1_alg».proof.Proof.KernelHost
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs run, the kernel's node output and edge features ending
    at the reference's stages `val_main_v74` and `val_main_v32` of the arguments, which is where the reference's end. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.node_result m ρ c),
        (h c).2.1.trans (Cert.KernelIdeal.HostSide.edge_result m ρ c), (h c).2.2⟩)
      (Cert.KernelIdeal.Results.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15⟩ := hagree c
      rw [Cert.ReferenceIdeal.Read.val_main_v74_eq, a0, a1, a2, a3, a4, a5, a6, a7, a8, a9, a10, a11, a12, a13, a14, a15]
    · obtain ⟨a0, a1, a2, a3, a4, a5, a6, a7, a8, a9, a10, a11, a12, a13, a14, a15⟩ := hagree c
      rw [Cert.ReferenceIdeal.Read.val_main_v32_eq, a0, a2, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
